-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S8192x4096, .bf16⟩
  | .hbm, ⟨5, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v2) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.SignedProduct.lean ====
/-
  The function both programs compute. With x a real (here: extended real) matrix of 8192 rows and 4096 columns and
  w a square matrix of order 4096, the result at row r and column c is

      ∑ k, x[r, k] · sign(w[c, k])

  — the product of x with the TRANSPOSE of the sign pattern of w (sign is -1, 0 or 1 by the order of the
  extended reals). Nothing here depends on a program: the arrays are functions of literal index types.
-/
import Idealize.ShloMosaic.PureOps.Ideal
import Idealize.ShloMosaic.Lib.ValueIdx

noncomputable section

open Idealize.ShloMosaic

namespace Cert.SignedProduct

/-- One entry of the product: row `r` of `x` against row `c` of the sign pattern of `w`, summed over the
    shared 4096 columns. -/
def entry (x : (⟨2, ![8192, 4096]⟩ : Shape).Idx → EReal) (w : (⟨2, ![4096, 4096]⟩ : Shape).Idx → EReal)
    (r : Fin 8192) (c : Fin 4096) : EReal :=
  ∑ k : Fin 4096, x (ValueIdx.ix2 r k) * Ideal.sign (w (ValueIdx.ix2 c k))

/-- The whole result array: entry (r, c) at the index whose coordinates are r and c. -/
def G (x : (⟨2, ![8192, 4096]⟩ : Shape).Idx → EReal) (w : (⟨2, ![4096, 4096]⟩ : Shape).Idx → EReal) :
    (⟨2, ![8192, 4096]⟩ : Shape).Idx → EReal :=
  fun i => entry x w (i 0) (i 1)

theorem G_apply (x : (⟨2, ![8192, 4096]⟩ : Shape).Idx → EReal) (w : (⟨2, ![4096, 4096]⟩ : Shape).Idx → EReal)
    (i : (⟨2, ![8192, 4096]⟩ : Shape).Idx) : G x w i = entry x w (i 0) (i 1) := rfl

end Cert.SignedProduct

end
-- ==== Proof.ReferenceProduct.lean ====
/-
  The reference computes the signed product. Its three host operations are: the sign of the weight, entry by
  entry; the transpose of that; and the matrix product of x with the transpose, contracting x's columns against
  the transpose's rows. Read at an index (r, c) the product is the sum over k of x[r, k] times the transpose at
  (k, c), and the transpose at (k, c) is the sign pattern at (c, k): the entry of `SignedProduct.G`.
-/
import proofs.«102775_j5162550690250_2_alg».proof.Proof.Gen.ReferenceIdeal.Read
import proofs.«102775_j5162550690250_2_alg».proof.Proof.SignedProduct

noncomputable section

open Idealize.ShloMosaic Idealize.ShloMosaic.TcCoe Idealize.SL.Sem

namespace Cert.ReferenceIdeal.Product

open Cert.ReferenceIdeal Cert.ReferenceIdeal.Gen Cert.ReferenceIdeal.Read Cert.SignedProduct

/-- The left operand of the product at output index `i` and summation index `k` is x at (row of `i`, `k`). -/
theorem left_index (i : S8192x4096.Idx) (k : Fin 4096) : lidx_main_v2 i k = ValueIdx.ix2 (i 0) k :=
  funext fun a => Fin.ext (by match a with | ⟨0, _⟩ => rfl | ⟨1, _⟩ => rfl)

/-- The right operand is the transpose at (`k`, column of `i`), which reads the sign pattern at (column of `i`, `k`). -/
theorem right_index (i : S8192x4096.Idx) (k : Fin 4096) : idx_main_v1 (ridx_main_v2 i k) = ValueIdx.ix2 (i 1) k :=
  funext fun a => Fin.ext (by match a with | ⟨0, _⟩ => rfl | ⟨1, _⟩ => rfl)

/-- The reference's last stage, at the ideal values, is the signed product of its two arguments. -/
theorem value_eq (x : (⟨S8192x4096, .f32⟩ : BufTy).Contents (Elt Ideal)) (w : (⟨S4096x4096, .f32⟩ : BufTy).Contents (Elt Ideal)) :
    val_main_v2 (F := Ideal) x w = G x w := by
  funext i
  rw [val_main_v2_apply, G_apply]
  unfold entry
  refine Finset.sum_congr rfl fun k _ => ?_
  rw [val_main_v1_apply, val_main_v0_apply, left_index, right_index, Ideal.hostUnary_sign_def]
  rfl

end Cert.ReferenceIdeal.Product

end
-- ==== Proof.BlockProduct.lean ====
/-
  What one grid point computes. The body loads a block of 1024 rows of x (all 4096 columns) and a block of 512
  rows of the sign pattern (all 4096 columns), and stores their matrix product contracted over the COLUMNS of
  both — the second operand is used transposed — into a zero accumulator. Over the extended reals the entry at
  (p, q) of the stored block is therefore the plain sum  ∑ k, a[p, k] · b[q, k].
-/
import proofs.«102775_j5162550690250_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.BlockProduct

open Cert.KernelIdeal Cert.KernelIdeal.Gen

/-! The product's operand indices at output index `j` and contraction position `s`: the left operand is read at
    (row of `j`, `s`), the right operand at (column of `j`, `s`). -/

theorem left_row (j : S1024x512.Idx) (s : dot_S1024x4096_S512x4096_S1024x512_1_1_0_0_n_n.contr.Idx) :
    (dot_S1024x4096_S512x4096_S1024x512_1_1_0_0_n_n.lhsIdx j s 0).val = (j 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl

theorem left_col (j : S1024x512.Idx) (s : dot_S1024x4096_S512x4096_S1024x512_1_1_0_0_n_n.contr.Idx) :
    (dot_S1024x4096_S512x4096_S1024x512_1_1_0_0_n_n.lhsIdx j s 1).val = (s ⟨0, by decide⟩).val :=
  dot_S1024x4096_S512x4096_S1024x512_1_1_0_0_n_n.lhsIdx_val_of_single rfl j s

theorem right_row (j : S1024x512.Idx) (s : dot_S1024x4096_S512x4096_S1024x512_1_1_0_0_n_n.contr.Idx) :
    (dot_S1024x4096_S512x4096_S1024x512_1_1_0_0_n_n.rhsIdx j s 0).val = (j 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl

theorem right_col (j : S1024x512.Idx) (s : dot_S1024x4096_S512x4096_S1024x512_1_1_0_0_n_n.contr.Idx) :
    (dot_S1024x4096_S512x4096_S1024x512_1_1_0_0_n_n.rhsIdx j s 1).val = (s ⟨0, by decide⟩).val :=
  dot_S1024x4096_S512x4096_S1024x512_1_1_0_0_n_n.rhsIdx_val_of_single rfl j s

/-- The stored block, entry by entry: row `p` of the x-block against row `q` of the sign block, summed over the
    4096 shared columns. The two shape casts are between equal shapes, and the accumulator is zero. -/
theorem payload_apply (a : Vec Ideal S1024x4096 .bf16) (b : Vec Ideal S512x4096 .bf16) (j : S1024x512.Idx) :
    k0_pay1 (F := Ideal) a b j = ∑ k : Fin 4096, a (ValueIdx.ix2 (j 0) k) * b (ValueIdx.ix2 (j 1) k) := by
  unfold k0_pay1
  simp only [shapeCast_self]
  show FloatOps.matmul (F := Ideal) (φ₁ := .bf16) (φ₂ := .bf16) dot_S1024x4096_S512x4096_S1024x512_1_1_0_0_n_n none a b (constant (F := Ideal) S1024x512 .f32 0x00000000#32) j = _
  rw [Ideal.matmul_constant_zero_apply, ← Equiv.sum_comp (ValueIdx.contrEquiv1 dot_S1024x4096_S512x4096_S1024x512_1_1_0_0_n_n 4096 rfl rfl).symm]
  refine Finset.sum_congr rfl fun k _ => ?_
  have hk := ValueIdx.contrEquiv1_symm_val dot_S1024x4096_S512x4096_S1024x512_1_1_0_0_n_n 4096 rfl rfl k
  have el : dot_S1024x4096_S512x4096_S1024x512_1_1_0_0_n_n.lhsIdx j ((ValueIdx.contrEquiv1 dot_S1024x4096_S512x4096_S1024x512_1_1_0_0_n_n 4096 rfl rfl).symm k) = ValueIdx.ix2 (j 0) k := funext fun d => Fin.ext (by
    match d with
    | ⟨0, _⟩ => exact left_row _ _
    | ⟨1, _⟩ => exact (left_col _ _).trans hk)
  have er : dot_S1024x4096_S512x4096_S1024x512_1_1_0_0_n_n.rhsIdx j ((ValueIdx.contrEquiv1 dot_S1024x4096_S512x4096_S1024x512_1_1_0_0_n_n 4096 rfl rfl).symm k) = ValueIdx.ix2 (j 1) k := funext fun d => Fin.ext (by
    match d with
    | ⟨0, _⟩ => exact right_row _ _
    | ⟨1, _⟩ => exact (right_col _ _).trans hk)
  rw [el, er]
  rfl

end Cert.KernelIdeal.BlockProduct

end
-- ==== Proof.KernelProduct.lean ====
/-
  The kernel computes the signed product. Before the grid runs, the host writes x unchanged (a change of float
  format, the identity on extended reals) and the sign pattern of the weight (likewise) into the two arrays the
  grid reads. The grid has 8 × 8 points; point (i, j) reads rows 1024·i … 1024·i + 1023 of x and rows
  512·j … 512·j + 511 of the sign pattern, and writes the 1024 × 512 block (i, j) of the result. Entry (p, q) of
  that block is row 1024·i + p of x against row 512·j + q of the sign pattern: the entry of `SignedProduct.G` at
  the array index the block's (p, q) stands for. The 64 blocks tile the result, so the result IS `G`.
-/
import proofs.«102775_j5162550690250_2_alg».proof.Proof.Gen.KernelIdeal.Value
import proofs.«102775_j5162550690250_2_alg».proof.Proof.SignedProduct
import proofs.«102775_j5162550690250_2_alg».proof.Proof.BlockProduct
import Idealize.ShloMosaic.Lib.StableHlo.Run

noncomputable section

open Idealize.ShloMosaic Idealize.ShloMosaic.TcCoe Idealize.SL.Sem
open Idealize.ShloMosaic.Pipeline (Dat)

namespace Cert.KernelIdeal.Product

open Cert.KernelIdeal Cert.KernelIdeal.Gen Cert.KernelIdeal.Value Cert.KernelIdeal.BlockProduct Cert.SignedProduct

variable (m : (ℓ : Loc nD τ sig) → Buf (Elt Ideal) ℓ) (ρ : Dev nD → PrngReg)

theorem zero_offsets : (![0, 0] : Fin 2 → Nat) = fun _ => 0 := funext fun a => by fin_cases a <;> rfl

/-! ## What the grid finds in the arrays it reads -/

/-- The array the first window reads is x as launched: the host only changed its float format. -/
theorem staged_x (c : Dev nD) :
    (V m c main_v2 : S8192x4096.Idx → EReal) = m ((c : Thread nD τ).loc main_arg0) := by
  dsimp only [Gen.V, Gen.hostOps0]; after_results; rfl

/-- The array the second window reads is the sign pattern of the weight as launched. -/
theorem staged_signs (c : Dev nD) :
    (V m c main_v1 : S4096x4096.Idx → EReal) = fun i => Ideal.sign (m ((c : Thread nD τ).loc main_arg1) i) := by
  dsimp only [Gen.V, Gen.hostOps0]; after_results; rfl

/-! ## The blocks the grid reads, as rows of the arguments -/

/-- How the three windows move over the grid, decided over its 64 points: the x-window's block row is the result
    block's row and the sign window's block row is the result block's COLUMN; both input windows span all 4096
    columns (block column 0); the result's block indices range over 8 × 8. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 result blocks is some grid point's. -/
theorem every_block : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- Entry `y` of the x-block at point `t` is x at the array index `i` that `y` stands for: the block's first row is
    1024 times its block row. -/
theorem x_block_apply (c : Dev nD) (t : Fin cfg0.N) (y : S1024x4096.Idx) (i : S8192x4096.Idx)
    (h0 : (i 0).val = win0_0.index t (0 : Fin 2) * 1024 + (y 0).val)
    (h1 : (i 1).val = win0_0.index t (1 : Fin 2) * 4096 + (y 1).val) :
    (iblk m c 0 t : Vec Ideal S1024x4096 .bf16) y = m ((c : Thread nD τ).loc main_arg0) i := by
  unfold iblk
  rw [View.read_apply]
  show (V m c main_v2 : S8192x4096.Idx → EReal) _ = _
  rw [staged_x]
  congr 1
  funext a
  apply Fin.ext
  match a with
  | ⟨0, _⟩ => show win0_0.index t (0 : Fin 2) * 1024 + 1 * (y 0).val = (i 0).val; omega
  | ⟨1, _⟩ => show win0_0.index t (1 : Fin 2) * 4096 + 1 * (y 1).val = (i 1).val; omega

/-- Entry `y` of the sign block at point `t` is the sign of the weight at the array index `i` that `y` stands for:
    the block's first row is 512 times its block row. -/
theorem sign_block_apply (c : Dev nD) (t : Fin cfg0.N) (y : S512x4096.Idx) (i : S4096x4096.Idx)
    (h0 : (i 0).val = win0_1.index t (0 : Fin 2) * 512 + (y 0).val)
    (h1 : (i 1).val = win0_1.index t (1 : Fin 2) * 4096 + (y 1).val) :
    (iblk m c 1 t : Vec Ideal S512x4096 .bf16) y = Ideal.sign (m ((c : Thread nD τ).loc main_arg1) i) := by
  unfold iblk
  rw [View.read_apply]
  show (V m c main_v1 : S4096x4096.Idx → EReal) _ = _
  rw [staged_signs]
  show Ideal.sign (m ((c : Thread nD τ).loc main_arg1) _) = _
  congr 2
  funext a
  apply Fin.ext
  match a with
  | ⟨0, _⟩ => show win0_1.index t (0 : Fin 2) * 512 + 1 * (y 0).val = (i 0).val; omega
  | ⟨1, _⟩ => show win0_1.index t (1 : Fin 2) * 4096 + 1 * (y 1).val = (i 1).val; omega

/-! ## What a point writes back, and the whole result -/

/-- Point `t` writes back block `t` of the signed product of the arguments. -/
theorem flushed_eq (c : Dev nD) (t : Fin cfg0.N) :
    (dats m 0 c).flushed 2 t
      = ((cfg0.win 2).blk t).view.read (Elt Ideal) (G (m ((c : Thread nD τ).loc main_arg0)) (m ((c : Thread nD τ).loc main_arg1))) := by
  rw [Value.flushed2]
  unfold out0_2
  rw [View.canon_unit_zero zero_offsets]
  simp only [View.ld_unit_zero (S := S1024x4096) zero_offsets, View.ld_unit_zero (S := S512x4096) zero_offsets]
  obtain ⟨e0, e1, e2, e3, -, -⟩ := block_indices t
  funext j
  show k0_pay1 (F := Ideal) (iblk m c 0 t) (iblk m c 1 t) j
    = G (m ((c : Thread nD τ).loc main_arg0)) (m ((c : Thread nD τ).loc main_arg1)) (((cfg0.win 2).blk t).view.emb j)
  refine (payload_apply _ _ j).trans ?_
  rw [G_apply]
  unfold entry
  refine Finset.sum_congr rfl fun k _ => ?_
  have hx := x_block_apply m c t (ValueIdx.ix2 (j 0) k) (ValueIdx.ix2 ((((cfg0.win 2).blk t).view.emb j) 0) k)
    (by show win0_2.index t (0 : Fin 2) * 1024 + 1 * (j 0).val = win0_0.index t (0 : Fin 2) * 1024 + (j 0).val; omega)
    (by show k.val = win0_0.index t (1 : Fin 2) * 4096 + k.val; omega)
  have hw := sign_block_apply m c t (ValueIdx.ix2 (j 1) k) (ValueIdx.ix2 ((((cfg0.win 2).blk t).view.emb j) 1) k)
    (by show win0_2.index t (1 : Fin 2) * 512 + 1 * (j 1).val = win0_1.index t (0 : Fin 2) * 512 + (j 1).val; omega)
    (by show k.val = win0_1.index t (1 : Fin 2) * 4096 + k.val; omega)
  rw [hx, hw]

/-- An index of the result is in point `t`'s block iff each coordinate is in the block's range on its axis. -/
theorem mem_block (t : Fin cfg0.N) (i : S8192x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v3).slice (win0_2.rect t)).set ↔ _
  rw [View.set_slice_whole, Rect.mem_set_unit]
  exact Iff.rfl

/-- The 64 blocks tile the result: the index (r, c) lies in the block of row r / 1024 and column c / 512. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := every_block ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- So the result array ends holding the signed product of the arguments. -/
theorem final (c : Dev nD) :
    (dats m 0 c).arrAt 2 cfg0.N = G (m ((c : Thread nD τ).loc main_arg0)) (m ((c : Thread nD τ).loc main_arg1)) :=
  (dats m 0 c).arrAt_eq_of_cover 2 _ (fun t _ => flushed_eq m c t) covered

/-- The kernel's run, read: every weakly fair execution terminates with the result at the signed product of the
    arguments and the arguments unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Product

end
-- ==== Proof.lean ====
/-
  The kernel multiplies x (8192 × 4096) by the transposed sign pattern of the weight (4096 × 4096) on an 8 × 8 grid
  of 1024 × 512 result blocks; the reference takes the sign of the weight, transposes it and multiplies once. Over
  the extended reals both results are, at row r and column c,

      ∑ k, x[r, k] · sign(weight[c, k])

  (`SignedProduct.G`): the kernel's by reading each block's matrix product entry by entry and tiling the result with
  the 64 blocks (`KernelProduct`, over `BlockProduct`), the reference's by reading its three host operations at an
  index (`ReferenceProduct`). The two sums have the same terms in the same order, so no law of the extended reals
  beyond 0 + s = s is used, and the finiteness of the inputs is never opened. The kernel's change of float format
  is the identity on extended reals; the idealization rewrote nothing, so there is nothing to preserve.
-/
import proofs.«102775_j5162550690250_2_alg».proof.Defs
import proofs.«102775_j5162550690250_2_alg».proof.Proof.Gen.Kernel
import proofs.«102775_j5162550690250_2_alg».proof.Proof.Gen.Kernel.Skeleton
import proofs.«102775_j5162550690250_2_alg».proof.Proof.Gen.Kernel.Launch
import proofs.«102775_j5162550690250_2_alg».proof.Proof.Gen.Kernel.Points
import proofs.«102775_j5162550690250_2_alg».proof.Proof.Gen.Kernel.Frame
import proofs.«102775_j5162550690250_2_alg».proof.Proof.Gen.KernelIdeal
import proofs.«102775_j5162550690250_2_alg».proof.Proof.Gen.KernelIdeal.Skeleton
import proofs.«102775_j5162550690250_2_alg».proof.Proof.Gen.KernelIdeal.Launch
import proofs.«102775_j5162550690250_2_alg».proof.Proof.Gen.KernelIdeal.Points
import proofs.«102775_j5162550690250_2_alg».proof.Proof.Gen.KernelIdeal.Frame
import proofs.«102775_j5162550690250_2_alg».proof.Proof.Gen.ReferenceIdeal
import proofs.«102775_j5162550690250_2_alg».proof.Proof.Gen.KernelIdeal.Value
import proofs.«102775_j5162550690250_2_alg».proof.Proof.Gen.ReferenceIdeal.Run
import proofs.«102775_j5162550690250_2_alg».proof.Proof.Gen.ReferenceIdeal.Read
import proofs.«102775_j5162550690250_2_alg».proof.Proof.Gen.Pre_finite_inputs
import proofs.«102775_j5162550690250_2_alg».proof.Proof.SignedProduct
import proofs.«102775_j5162550690250_2_alg».proof.Proof.ReferenceProduct
import proofs.«102775_j5162550690250_2_alg».proof.Proof.KernelProduct
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments alone: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on x and the weight, both programs end with the signed product of the two. -/
theorem algebraic : Cert.algebraic_KernelIdeal_ReferenceIdeal := by
  intro m ρ m' ρ' _ hagree
  refine ⟨fun c => Cert.SignedProduct.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Product.value_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
